-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S192x64 : Shape := ⟨2, ![192, 64]⟩
abbrev S192 : Shape := ⟨1, ![192]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S1x64 .f32) (main_arg11 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S1x64 .f32 := Host.absf main_arg10
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S192x64 .f32) (main_arg6 : FVec F S192 .f32) (main_arg7 : FVec F S192 .f32) (main_arg8 : FVec F S64x64 .f32) (main_arg9 : FVec F S64 .f32) (main_arg10 : FVec F S1x64 .f32) (main_arg11 : FVec F S1 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S192x64 .f32 := Host.absf main_arg5
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S192 .f32 := Host.absf main_arg6
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S192 .f32 := Host.absf main_arg7
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S1600000 .f32) (main_arg3 : FVec F S64x64 .f32) (main_arg4 : FVec F S192x64 .f32) (main_arg5 : FVec F S192x64 .f32) (main_arg6 : FVec F S192 .f32) (main_arg7 : FVec F S192 .f32) (main_arg8 : FVec F S64x64 .f32) (main_arg9 : FVec F S64 .f32) (main_arg10 : FVec F S1x64 .f32) (main_arg11 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S192x64 .f32 := Host.absf main_arg4
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S192x64 : Shape := ⟨2, ![192, 64]⟩
abbrev S192 : Shape := ⟨1, ![192]⟩
abbrev S64 : Shape := ⟨1, ![64]⟩
abbrev S1x64 : Shape := ⟨2, ![1, 64]⟩
abbrev S1 : Shape := ⟨1, ![1]⟩
abbrev S64x192 : Shape := ⟨2, ![64, 192]⟩
abbrev S1x192 : Shape := ⟨2, ![1, 192]⟩
abbrev S_ : Shape := ⟨0, ![]⟩
abbrev S10000x64 : Shape := ⟨2, ![10000, 64]⟩
abbrev S1x1600000 : Shape := ⟨2, ![1, 1600000]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩
abbrev S64x1 : Shape := ⟨2, ![64, 1]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 119
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S192x64, .f32⟩
  | .hbm, ⟨5, _⟩ => ⟨S192x64, .f32⟩
  | .hbm, ⟨6, _⟩ => ⟨S192, .f32⟩
  | .hbm, ⟨7, _⟩ => ⟨S192, .f32⟩
  | .hbm, ⟨8, _⟩ => ⟨S64x64, .f32⟩
  | .hbm, ⟨9, _⟩ => ⟨S64, .f32⟩
  | .hbm, ⟨10, _⟩ => ⟨S1x64, .f32⟩
  | .hbm, ⟨11, _⟩ => ⟨S1, .f32⟩
  | .hbm, ⟨12, _⟩ => ⟨S64x192, .f32⟩
  | .hbm, ⟨13, _⟩ => ⟨S64x192, .f32⟩
  | .hbm, ⟨14, _⟩ => ⟨S1x192, .f32⟩
  | .hbm, ⟨15, _⟩ => ⟨S64x192, .f32⟩
  | .hbm, ⟨16, _⟩ => ⟨S64x192, .f32⟩
  | .hbm, ⟨17, _⟩ => ⟨S64x192, .f32⟩
  | .hbm, ⟨18, _⟩ => ⟨S64x192, .f32⟩
  | .hbm, ⟨19, _⟩ => ⟨S1x192, .f32⟩
  | .hbm, ⟨20, _⟩ => ⟨S64x192, .f32⟩
  | .hbm, ⟨21, _⟩ => ⟨S64x192, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S_, .f32⟩
  | .hbm, ⟨32, _⟩ => ⟨S64x64, .f32⟩
  | .hbm, ⟨33, _⟩ => ⟨S64x64, .f32⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S_, .f32⟩
  | .hbm, ⟨41, _⟩ => ⟨S64x64, .f32⟩
  | .hbm, ⟨42, _⟩ => ⟨S64x64, .f32⟩
  | .hbm, ⟨43, _⟩ => ⟨S_, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S_, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S100000x64, .f32⟩
  | .hbm, ⟨56, _⟩ => ⟨S1x1600000, .i32⟩
  | .hbm, ⟨57, _⟩ => ⟨S1600000, .i32⟩
  | .hbm, ⟨58, _⟩ => ⟨S1x1600000, .i32⟩
  | .hbm, ⟨59, _⟩ => ⟨S1600000, .i32⟩
  | .hbm, ⟨60, _⟩ => ⟨S100000, .i32⟩
  | .hbm, ⟨61, _⟩ => ⟨S1700000, .i32⟩
  | .hbm, ⟨62, _⟩ => ⟨S1700000, .i32⟩
  | .hbm, ⟨63, _⟩ => ⟨S_, .f32⟩
  | .hbm, ⟨64, _⟩ => ⟨S100000, .f32⟩
  | .hbm, ⟨65, _⟩ => ⟨S1700000, .f32⟩
  | .hbm, ⟨66, _⟩ => ⟨S_, .f32⟩
  | .hbm, ⟨67, _⟩ => ⟨S100000, .f32⟩
  | .hbm, ⟨68, _⟩ => ⟨S1700000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .i1⟩
  | .hbm, ⟨73, _⟩ => ⟨S100000, .f32⟩
  | .hbm, ⟨74, _⟩ => ⟨S_, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000, .f32⟩
  | .hbm, ⟨87, _⟩ => ⟨S1700000, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000, .f32⟩
  | .hbm, ⟨97, _⟩ => ⟨S1700000, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x64, .f32⟩
  | .hbm, ⟨107, _⟩ => ⟨S1700000x1, .f32⟩
  | .hbm, ⟨108, _⟩ => ⟨S1700000x64, .f32⟩
  | .hbm, ⟨109, _⟩ => ⟨S1700000x64, .f32⟩
  | .hbm, ⟨110, _⟩ => ⟨S_, .f32⟩
  | .hbm, ⟨111, _⟩ => ⟨S100000x64, .f32⟩
  | .hbm, ⟨112, _⟩ => ⟨S1700000x1, .i32⟩
  | .hbm, ⟨113, _⟩ => ⟨S100000x64, .f32⟩
  | .hbm, ⟨114, _⟩ => ⟨S64x64, .f32⟩
  | .hbm, ⟨115, _⟩ => ⟨S1x64, .f32⟩
  | .hbm, ⟨116, _⟩ => ⟨S64x1, .f32⟩
  | .hbm, ⟨117, _⟩ => ⟨S1x1, .f32⟩
  | .hbm, ⟨118, _⟩ => ⟨S100000x1, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S1x64, .f32⟩
  | .local _ .vmem, ⟨9, _⟩ => ⟨S64x1, .f32⟩
  | .local _ .vmem, ⟨10, _⟩ => ⟨S1x1, .f32⟩
  | .local _ .vmem, ⟨11, _⟩ => ⟨S10000x1, .f32⟩
  | .local _ .vmem, ⟨12, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_4 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_6 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_call0_v0 : Ref sig .tc := ⟨.hbm, 75, rfl⟩
abbrev main_call0_v1 : Ref sig .tc := ⟨.hbm, 76, rfl⟩
abbrev main_v54 : Ref sig .tc := ⟨.hbm, 77, rfl⟩
abbrev main_c : Ref sig .tc := ⟨.hbm, 78, rfl⟩
abbrev main_v55 : Ref sig .tc := ⟨.hbm, 79, rfl⟩
abbrev main_v56 : Ref sig .tc := ⟨.hbm, 80, rfl⟩
abbrev main_c_8 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_9 : Ref sig .tc := ⟨.hbm, 88, rfl⟩
abbrev main_v63 : Ref sig .tc := ⟨.hbm, 89, rfl⟩
abbrev main_v64 : Ref sig .tc := ⟨.hbm, 90, rfl⟩
abbrev main_c_10 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_11 : Ref sig .tc := ⟨.hbm, 98, rfl⟩
abbrev main_v71 : Ref sig .tc := ⟨.hbm, 99, rfl⟩
abbrev main_v72 : Ref sig .tc := ⟨.hbm, 100, rfl⟩
abbrev main_c_12 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_13 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S192x64_S64x192_1_0 : S192x64.Transposes [1, 0] S64x192
  bcast_S192_S1x192_1 : S192.BroadcastsInDim S1x192 (![1] : Fin 1 → Fin S1x192.rank)
  bcast_S1x192_S64x192_0_1 : S1x192.BroadcastsInDim S64x192 (![0, 1] : Fin 2 → Fin S64x192.rank)
  slices_S64x192_S64x64_0_0 : S64x192.Slices ![0, 0] S64x64
  slices_S64x192_S64x64_0_64 : S64x192.Slices ![0, 64] S64x64
  slices_S64x192_S64x64_0_128 : S64x192.Slices ![0, 128] S64x64
  bcast_S_S64x64 : S_.BroadcastsInDim S64x64 (![] : Fin 0 → Fin S64x64.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  transposes_S1x64_S64x1_1_0 : S1x64.Transposes [1, 0] S64x1
  shapeCasts_S1_S1x1 : S1.ShapeCasts S1x1
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  dot_S64x64_S64x192_S64x192_1_0_0_1_n_n_wf : DotDims.WF S64x64 S64x192 S64x192 [1] [0] [0] [1] [] []
  dot_S10000x64_S64x64_S10000x64_1_0_0_1_n_n_wf : DotDims.WF S10000x64 S64x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x1.size a ≤ S100000x1.size a
  hwx1_5 : ∀ i : grid1.Coords, EltTy.bits .f32 = 32 ∨ (Rect.block (s := S100000x1) S10000x1.size (cc1_transform_5 i) (hinb1_5 i)).WholeWords (EltTy.packing .f32)

variable [Facts₀]

def dot_S64x64_S64x192_S64x192_1_0_0_1_n_n : DotDims S64x64 S64x192 S64x192 where
  lhsContracting := [1]
  rhsContracting := [0]
  lhsNonContracting := [0]
  rhsNonContracting := [1]
  lhsBatch := []
  rhsBatch := []
  wf := dot_S64x64_S64x192_S64x192_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v83) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v85) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v86) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v87) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v88) S10000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S192x64 : Shape := ⟨2, ![192, 64]⟩
abbrev S192 : Shape := ⟨1, ![192]⟩
abbrev S64 : Shape := ⟨1, ![64]⟩
abbrev S1x64 : Shape := ⟨2, ![1, 64]⟩
abbrev S1 : Shape := ⟨1, ![1]⟩
abbrev S64x192 : Shape := ⟨2, ![64, 192]⟩
abbrev S1x192 : Shape := ⟨2, ![1, 192]⟩
abbrev S_ : Shape := ⟨0, ![]⟩
abbrev S1x1600000 : Shape := ⟨2, ![1, 1600000]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩
abbrev S64x1 : Shape := ⟨2, ![64, 1]⟩
abbrev S100000x1 : Shape := ⟨2, ![100000, 1]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S192x64, .f32⟩
  | .hbm, ⟨5, _⟩ => ⟨S192x64, .f32⟩
  | .hbm, ⟨6, _⟩ => ⟨S192, .f32⟩
  | .hbm, ⟨7, _⟩ => ⟨S192, .f32⟩
  | .hbm, ⟨8, _⟩ => ⟨S64x64, .f32⟩
  | .hbm, ⟨9, _⟩ => ⟨S64, .f32⟩
  | .hbm, ⟨10, _⟩ => ⟨S1x64, .f32⟩
  | .hbm, ⟨11, _⟩ => ⟨S1, .f32⟩
  | .hbm, ⟨12, _⟩ => ⟨S64x192, .f32⟩
  | .hbm, ⟨13, _⟩ => ⟨S64x192, .f32⟩
  | .hbm, ⟨14, _⟩ => ⟨S1x192, .f32⟩
  | .hbm, ⟨15, _⟩ => ⟨S64x192, .f32⟩
  | .hbm, ⟨16, _⟩ => ⟨S64x192, .f32⟩
  | .hbm, ⟨17, _⟩ => ⟨S64x192, .f32⟩
  | .hbm, ⟨18, _⟩ => ⟨S64x192, .f32⟩
  | .hbm, ⟨19, _⟩ => ⟨S1x192, .f32⟩
  | .hbm, ⟨20, _⟩ => ⟨S64x192, .f32⟩
  | .hbm, ⟨21, _⟩ => ⟨S64x192, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S_, .f32⟩
  | .hbm, ⟨32, _⟩ => ⟨S64x64, .f32⟩
  | .hbm, ⟨33, _⟩ => ⟨S64x64, .f32⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S_, .f32⟩
  | .hbm, ⟨41, _⟩ => ⟨S64x64, .f32⟩
  | .hbm, ⟨42, _⟩ => ⟨S64x64, .f32⟩
  | .hbm, ⟨43, _⟩ => ⟨S_, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S_, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S100000x64, .f32⟩
  | .hbm, ⟨56, _⟩ => ⟨S1x1600000, .i32⟩
  | .hbm, ⟨57, _⟩ => ⟨S1600000, .i32⟩
  | .hbm, ⟨58, _⟩ => ⟨S1x1600000, .i32⟩
  | .hbm, ⟨59, _⟩ => ⟨S1600000, .i32⟩
  | .hbm, ⟨60, _⟩ => ⟨S100000, .i32⟩
  | .hbm, ⟨61, _⟩ => ⟨S1700000, .i32⟩
  | .hbm, ⟨62, _⟩ => ⟨S1700000, .i32⟩
  | .hbm, ⟨63, _⟩ => ⟨S_, .f32⟩
  | .hbm, ⟨64, _⟩ => ⟨S100000, .f32⟩
  | .hbm, ⟨65, _⟩ => ⟨S1700000, .f32⟩
  | .hbm, ⟨66, _⟩ => ⟨S_, .f32⟩
  | .hbm, ⟨67, _⟩ => ⟨S100000, .f32⟩
  | .hbm, ⟨68, _⟩ => ⟨S1700000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .i1⟩
  | .hbm, ⟨73, _⟩ => ⟨S100000, .f32⟩
  | .hbm, ⟨74, _⟩ => ⟨S_, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000, .f32⟩
  | .hbm, ⟨87, _⟩ => ⟨S1700000, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000, .f32⟩
  | .hbm, ⟨97, _⟩ => ⟨S1700000, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x64, .f32⟩
  | .hbm, ⟨107, _⟩ => ⟨S1700000x1, .f32⟩
  | .hbm, ⟨108, _⟩ => ⟨S1700000x64, .f32⟩
  | .hbm, ⟨109, _⟩ => ⟨S1700000x64, .f32⟩
  | .hbm, ⟨110, _⟩ => ⟨S_, .f32⟩
  | .hbm, ⟨111, _⟩ => ⟨S100000x64, .f32⟩
  | .hbm, ⟨112, _⟩ => ⟨S1700000x1, .i32⟩
  | .hbm, ⟨113, _⟩ => ⟨S100000x64, .f32⟩
  | .hbm, ⟨114, _⟩ => ⟨S64x64, .f32⟩
  | .hbm, ⟨115, _⟩ => ⟨S100000x64, .f32⟩
  | .hbm, ⟨116, _⟩ => ⟨S1x64, .f32⟩
  | .hbm, ⟨117, _⟩ => ⟨S100000x64, .f32⟩
  | .hbm, ⟨118, _⟩ => ⟨S100000x64, .f32⟩
  | .hbm, ⟨119, _⟩ => ⟨S_, .f32⟩
  | .hbm, ⟨120, _⟩ => ⟨S100000x64, .f32⟩
  | .hbm, ⟨121, _⟩ => ⟨S100000x64, .f32⟩
  | .hbm, ⟨122, _⟩ => ⟨S64x1, .f32⟩
  | .hbm, ⟨123, _⟩ => ⟨S100000x1, .f32⟩
  | .hbm, ⟨124, _⟩ => ⟨S1x1, .f32⟩
  | .hbm, ⟨125, _⟩ => ⟨S100000x1, .f32⟩
  | .hbm, ⟨126, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_4 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_6 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_call0_v0 : Ref sig .tc := ⟨.hbm, 75, rfl⟩
abbrev main_call0_v1 : Ref sig .tc := ⟨.hbm, 76, rfl⟩
abbrev main_v54 : Ref sig .tc := ⟨.hbm, 77, rfl⟩
abbrev main_c : Ref sig .tc := ⟨.hbm, 78, rfl⟩
abbrev main_v55 : Ref sig .tc := ⟨.hbm, 79, rfl⟩
abbrev main_v56 : Ref sig .tc := ⟨.hbm, 80, rfl⟩
abbrev main_c_8 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_9 : Ref sig .tc := ⟨.hbm, 88, rfl⟩
abbrev main_v63 : Ref sig .tc := ⟨.hbm, 89, rfl⟩
abbrev main_v64 : Ref sig .tc := ⟨.hbm, 90, rfl⟩
abbrev main_c_10 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_11 : Ref sig .tc := ⟨.hbm, 98, rfl⟩
abbrev main_v71 : Ref sig .tc := ⟨.hbm, 99, rfl⟩
abbrev main_v72 : Ref sig .tc := ⟨.hbm, 100, rfl⟩
abbrev main_c_12 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_13 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_call1_cst : Ref sig .tc := ⟨.hbm, 119, rfl⟩
abbrev main_call1_v0 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩

abbrev nD : Nat := 1
abbrev τ : Topo := Topo.v7x

variable {F : FTy → Type} [FloatOps F]

class Facts₀ : Prop where
  transposes_S192x64_S64x192_1_0 : S192x64.Transposes [1, 0] S64x192
  bcast_S192_S1x192_1 : S192.BroadcastsInDim S1x192 (![1] : Fin 1 → Fin S1x192.rank)
  bcast_S1x192_S64x192_0_1 : S1x192.BroadcastsInDim S64x192 (![0, 1] : Fin 2 → Fin S64x192.rank)
  slices_S64x192_S64x64_0_0 : S64x192.Slices ![0, 0] S64x64
  slices_S64x192_S64x64_0_64 : S64x192.Slices ![0, 64] S64x64
  slices_S64x192_S64x64_0_128 : S64x192.Slices ![0, 128] S64x64
  bcast_S_S64x64 : S_.BroadcastsInDim S64x64 (![] : Fin 0 → Fin S64x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S64x64_S64x192_S64x192_1_0_0_1_n_n_wf : DotDims.WF S64x64 S64x192 S64x192 [1] [0] [0] [1] [] []
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []

variable [Facts₀]

def dot_S64x64_S64x192_S64x192_1_0_0_1_n_n : DotDims S64x64 S64x192 S64x192 where
  lhsContracting := [1]
  rhsContracting := [0]
  lhsNonContracting := [0]
  rhsNonContracting := [1]
  lhsBatch := []
  rhsBatch := []
  wf := dot_S64x64_S64x192_S64x192_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run, with its result named.

  The program is two grids of row blocks around stretches of host operations.  Every weakly fair execution from
  a memory with zero counters ends, nothing faulting, with every unscoped buffer at the last boundary's contents:
  the launch memory folded through the first host stretch, the first grid's write-backs, the three middle
  stretches and the second grid's write-backs (`W6`).  Read at the result buffer, that is the statement below;
  read at an argument it is the argument as launched.
-/
import proofs.«108999_j50483045597459_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and every argument as launched. -/
theorem run : θ_run defs (onTc (τ := τ) (main (F := F))) ⟨m, fun _ => 0, ρ⟩ (fun r => ∀ c : Dev nD,
      r.2.mem ((c.tc : Thread nD τ).loc main_v88) = W6 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v88 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Whole

end
-- ==== Proof.KernelDot.lean ====
/-
  The kernel's two matrix products, read at an index.

  A block of 10000 rows times a [64, 64] matrix (or a [64, 1] column), accumulated into zero, is at (r, c) the sum over
  k of left (r, k) · right (k, c) on the extended reals: the zero accumulator adds nothing.  The operands' float formats
  are free, since narrowing to bf16 is the identity there.
-/
import proofs.«108999_j50483045597459_1_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.At

open Cert.KernelIdeal Idealize.ShloMosaic Idealize.ShloMosaic.TcCoe

/-- Row `i 0`, column `k` of a block of rows. -/
abbrev rowWide (i : S10000x64.Idx) (k : Fin 64) : S10000x64.Idx := fun a => match a with
  | ⟨0, _⟩ => ⟨(i 0).val, (i 0).isLt⟩
  | ⟨1, _⟩ => ⟨k.val, k.isLt⟩
/-- Row `k`, column `i 1` of the square matrix. -/
abbrev colWide (i : S10000x64.Idx) (k : Fin 64) : S64x64.Idx := fun a => match a with
  | ⟨0, _⟩ => ⟨k.val, k.isLt⟩
  | ⟨1, _⟩ => ⟨(i 1).val, (i 1).isLt⟩
/-- Row `i 0`, column `k` of a block of rows, from an index of the one-column result. -/
abbrev rowThin (i : S10000x1.Idx) (k : Fin 64) : S10000x64.Idx := fun a => match a with
  | ⟨0, _⟩ => ⟨(i 0).val, (i 0).isLt⟩
  | ⟨1, _⟩ => ⟨k.val, k.isLt⟩
/-- Row `k` of the column. -/
abbrev colThin (i : S10000x1.Idx) (k : Fin 64) : S64x1.Idx := fun a => match a with
  | ⟨0, _⟩ => ⟨k.val, k.isLt⟩
  | ⟨1, _⟩ => ⟨(i 1).val, (i 1).isLt⟩

theorem lhs_matWide_0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_matWide_1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem rhs_matWide_0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem rhs_matWide_1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem lhs_matThin_0 (i : S10000x1.Idx) (q : dot_S10000x64_S64x1_S10000x1_1_0_0_1_n_n.contr.Idx) : (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
theorem lhs_matThin_1 (i : S10000x1.Idx) (q : dot_S10000x64_S64x1_S10000x1_1_0_0_1_n_n.contr.Idx) : (dot_S10000x64_S64x1_S10000x1_1_0_0_1_n_n.lhsIdx i q 1).val = (q ⟨0, by decide⟩).val :=
  dot_S10000x64_S64x1_S10000x1_1_0_0_1_n_n.lhsIdx_val_of_single rfl i q
theorem rhs_matThin_0 (i : S10000x1.Idx) (q : dot_S10000x64_S64x1_S10000x1_1_0_0_1_n_n.contr.Idx) : (dot_S10000x64_S64x1_S10000x1_1_0_0_1_n_n.rhsIdx i q 0).val = (q ⟨0, by decide⟩).val :=
  dot_S10000x64_S64x1_S10000x1_1_0_0_1_n_n.rhsIdx_val_of_single rfl i q
theorem rhs_matThin_1 (i : S10000x1.Idx) (q : dot_S10000x64_S64x1_S10000x1_1_0_0_1_n_n.contr.Idx) : (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- [10000, 64] · [64, 64] into zero, at (r, c). -/
theorem matWide_apply {φ₁ φ₂ : FTy} (l : FVec Ideal S10000x64 φ₁) (r : FVec Ideal S64x64 φ₂) (i : S10000x64.Idx) :
    matmul dot_S10000x64_S64x64_S10000x64_1_0_0_1_n_n none l r (constant (F := Ideal) S10000x64 .f32 0x00000000#32) i = ∑ k : Fin 64, l (rowWide i k) * r (colWide i k) := by
  show FloatOps.matmul dot_S10000x64_S64x64_S10000x64_1_0_0_1_n_n none l r (constant (F := Ideal) S10000x64 .f32 0x00000000#32) i = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx i ((ValueIdx.contrEquiv1 dot_S10000x64_S64x64_S10000x64_1_0_0_1_n_n 64 rfl rfl).symm k) = rowWide i k := funext fun a => Fin.ext (by
    match a with
    | ⟨0, _⟩ => exact lhs_matWide_0 _ _
    | ⟨1, _⟩ => exact (lhs_matWide_1 _ _).trans hk)
  have er : dot_S10000x64_S64x64_S10000x64_1_0_0_1_n_n.rhsIdx i ((ValueIdx.contrEquiv1 dot_S10000x64_S64x64_S10000x64_1_0_0_1_n_n 64 rfl rfl).symm k) = colWide i k := funext fun a => Fin.ext (by
    match a with
    | ⟨0, _⟩ => exact (rhs_matWide_0 _ _).trans hk
    | ⟨1, _⟩ => exact rhs_matWide_1 _ _)
  rw [el, er]

/-- [10000, 64] · [64, 1] into zero, at (r, 0). -/
theorem matThin_apply {φ₁ φ₂ : FTy} (l : FVec Ideal S10000x64 φ₁) (r : FVec Ideal S64x1 φ₂) (i : S10000x1.Idx) :
    matmul dot_S10000x64_S64x1_S10000x1_1_0_0_1_n_n none l r (constant (F := Ideal) S10000x1 .f32 0x00000000#32) i = ∑ k : Fin 64, l (rowThin i k) * r (colThin i k) := by
  show FloatOps.matmul dot_S10000x64_S64x1_S10000x1_1_0_0_1_n_n none l r (constant (F := Ideal) S10000x1 .f32 0x00000000#32) i = _
  rw [Ideal.matmul_constant_zero_apply, ← Equiv.sum_comp (ValueIdx.contrEquiv1 dot_S10000x64_S64x1_S10000x1_1_0_0_1_n_n 64 rfl rfl).symm]
  refine Finset.sum_congr rfl fun k _ => ?_
  have hk := ValueIdx.contrEquiv1_symm_val dot_S10000x64_S64x1_S10000x1_1_0_0_1_n_n 64 rfl rfl k
  have el : dot_S10000x64_S64x1_S10000x1_1_0_0_1_n_n.lhsIdx i ((ValueIdx.contrEquiv1 dot_S10000x64_S64x1_S10000x1_1_0_0_1_n_n 64 rfl rfl).symm k) = rowThin i k := funext fun a => Fin.ext (by
    match a with
    | ⟨0, _⟩ => exact lhs_matThin_0 _ _
    | ⟨1, _⟩ => exact (lhs_matThin_1 _ _).trans hk)
  have er : dot_S10000x64_S64x1_S10000x1_1_0_0_1_n_n.rhsIdx i ((ValueIdx.contrEquiv1 dot_S10000x64_S64x1_S10000x1_1_0_0_1_n_n 64 rfl rfl).symm k) = colThin i k := funext fun a => Fin.ext (by
    match a with
    | ⟨0, _⟩ => exact (rhs_matThin_0 _ _).trans hk
    | ⟨1, _⟩ => exact rhs_matThin_1 _ _)
  rw [el, er]

end Cert.KernelIdeal.At

end
-- ==== Proof.KernelBlocks.lean ====
/-
  What each grid point computes, read at an index of its output block.

  First grid: a block of 10000 rows of x times the evolved weight W.  At (r, c) the stored value is the sum over k
  of x (r, k) · W (k, c): the casts to bf16 are the identity on the extended reals and the zero accumulator adds nothing.

  Second grid: with h a block of 10000 rows, the stored value at (r, 0) is
      (sum over j of max (sum over k of h (r, k) · P (k, j) + b (0, j), 0) · L (j, 0)) + β (0, 0),
  P the transposed projection, b its bias as a row, L the transposed head as a column, β its bias.
-/
import proofs.«108999_j50483045597459_1_alg».proof.Proof.Gen.KernelIdeal.Skeleton
import proofs.«108999_j50483045597459_1_alg».proof.Proof.KernelDot

noncomputable section

namespace Cert.KernelIdeal.At

open Cert.KernelIdeal Cert.KernelIdeal.Gen Idealize.ShloMosaic Idealize.ShloMosaic.TcCoe

/-- The first grid's stored block at (r, c). -/
theorem xw_pay_apply (x : Vec Ideal S10000x64 .f32) (w : Vec Ideal S64x64 .f32) (i : S10000x64.Idx) :
    k0_pay1 (F := Ideal) x w i = ∑ k : Fin 64, x (rowWide i k) * w (colWide i k) := by
  unfold k0_pay1
  rw [matWide_apply]
  simp only [shapeCast_self]
  rfl

/-- The bias row read under row `r`, column `j`: its one row, column `j`. -/
abbrev biasAt (j : Fin 64) : S1x64.Idx := fun a => match a with
  | ⟨0, _⟩ => ⟨0, Nat.one_pos⟩
  | ⟨1, _⟩ => ⟨j.val, j.isLt⟩
/-- The one entry of a [1, 1] array. -/
abbrev unitAt : S1x1.Idx := fun a => match a with
  | ⟨0, _⟩ => ⟨0, Nat.one_pos⟩
  | ⟨1, _⟩ => ⟨0, Nat.one_pos⟩

/-- The projection's bias row, spread over 10000 rows, read at (r, j). -/
theorem bias_apply (b : FVec Ideal S1x64 .f32) (i : S10000x64.Idx) :
    broadcastTo S10000x64 b broadcasts_S1x64_S10000x64 i = b (biasAt ⟨(i 1).val, (i 1).isLt⟩) :=
  broadcastTo_apply b broadcasts_S1x64_S10000x64 i _ (fun a => match a with
    | ⟨0, _⟩ => by show 0 = if (1 : Nat) = 1 then 0 else _; rw [if_pos rfl]
    | ⟨1, _⟩ => by show (i 1).val = if (64 : Nat) = 1 then 0 else (i 1).val; rw [if_neg (by decide)])

/-- The head's bias, spread over 10000 rows, read at (r, 0). -/
theorem beta_apply (b : FVec Ideal S1x1 .f32) (i : S10000x1.Idx) :
    broadcastTo S10000x1 b broadcasts_S1x1_S10000x1 i = b unitAt :=
  broadcastTo_apply b broadcasts_S1x1_S10000x1 i _ (fun a => match a with
    | ⟨0, _⟩ => by show 0 = if (1 : Nat) = 1 then 0 else _; rw [if_pos rfl]
    | ⟨1, _⟩ => by show 0 = if (1 : Nat) = 1 then 0 else _; rw [if_pos rfl])

/-- The second grid's stored block at (r, 0). -/
theorem head_pay_apply (h : Vec Ideal S10000x64 .f32) (p : Vec Ideal S64x64 .f32) (b : Vec Ideal S1x64 .f32)
    (l : Vec Ideal S64x1 .f32) (β : Vec Ideal S1x1 .f32) (i : S10000x1.Idx) :
    k1_pay1 (F := Ideal) h p b l β i
      = (∑ j : Fin 64, max ((∑ k : Fin 64, h (rowWide (rowThin i j) k) * p (colWide (rowThin i j) k)) + b (biasAt j))
            (Ideal.ofBits .f32 0x00000000#32) * l (colThin i j)) + β unitAt := by
  unfold k1_pay1
  rw [ValueIdx.addf_apply, matThin_apply, beta_apply]
  simp only [shapeCast_self]
  refine congrArg (· + β unitAt) (Finset.sum_congr rfl fun j _ => ?_)
  refine congrArg (· * l (colThin i j)) ?_
  show max (addf (F := Ideal) _ _ (rowThin i j)) _ = _
  rw [ValueIdx.addf_apply, matWide_apply, bias_apply]
  rfl

end Cert.KernelIdeal.At

end
-- ==== Proof.RefDot.lean ====
/-
  The reference's two matrix products, read at an index.

  On the extended reals the host's product of a [100000, 64] array with a [64, 64] array (or a [64, 1] one) is, at
  the output index (r, c), the sum over k of left (r, k) · right (k, c): there is no accumulator and no order to
  respect, addition of extended reals being commutative and associative.  Both lemmas hold for ANY operands, which is
  what lets a grid of row blocks be compared with them block by block.
-/
import proofs.«108999_j50483045597459_1_alg».proof.Proof.Gen.ReferenceIdeal.Read

noncomputable section

namespace Cert.ReferenceIdeal.At

open Cert.ReferenceIdeal Cert.ReferenceIdeal.Read Idealize.ShloMosaic Idealize.ShloMosaic.TcCoe

/-- [100000, 64] · [64, 64] at (r, c): the sum over k of left (r, k) · right (k, c). -/
theorem dotWide_apply (x : FVec Ideal S100000x64 .f32) (w : FVec Ideal S64x64 .f32)
    (i : S100000x64.Idx) :
    Host.dotGeneral (F := Ideal) (φ₁ := .f32) (φ₂ := .f32) dot_S100000x64_S64x64_S100000x64_1_0_0_1_n_n none x w i = ∑ k : Fin 64, x (lidx_main_v38 i k) * w (ridx_main_v38 i k) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = lidx_main_v38 i k := funext fun a => Fin.ext (by
    match a with
    | ⟨0, _⟩ => exact lhs_main_v38_0 _ _
    | ⟨1, _⟩ => exact (lhs_main_v38_1 _ _).trans hk)
  have er : dot_S100000x64_S64x64_S100000x64_1_0_0_1_n_n.rhsIdx i ((ValueIdx.contrEquiv1 dot_S100000x64_S64x64_S100000x64_1_0_0_1_n_n 64 rfl rfl).symm k) = ridx_main_v38 i k := funext fun a => Fin.ext (by
    match a with
    | ⟨0, _⟩ => exact (rhs_main_v38_0 _ _).trans hk
    | ⟨1, _⟩ => exact rhs_main_v38_1 _ _)
  rw [el, er]

/-- [100000, 64] · [64, 1] at (r, 0): the sum over k of left (r, k) · right (k, 0). -/
theorem dotThin_apply (x : FVec Ideal S100000x64 .f32) (w : FVec Ideal S64x1 .f32)
    (i : S100000x1.Idx) :
    Host.dotGeneral (F := Ideal) (φ₁ := .f32) (φ₂ := .f32) dot_S100000x64_S64x1_S100000x1_1_0_0_1_n_n none x w i = ∑ k : Fin 64, x (lidx_main_v91 i k) * w (ridx_main_v91 i k) := by
  simp only [Host.dotGeneral]
  rw [Ideal.dotGeneral_apply, ← Equiv.sum_comp (ValueIdx.contrEquiv1 dot_S100000x64_S64x1_S100000x1_1_0_0_1_n_n 64 rfl rfl).symm]
  refine Finset.sum_congr rfl fun k _ => ?_
  have hk := ValueIdx.contrEquiv1_symm_val dot_S100000x64_S64x1_S100000x1_1_0_0_1_n_n 64 rfl rfl k
  have el : dot_S100000x64_S64x1_S100000x1_1_0_0_1_n_n.lhsIdx i ((ValueIdx.contrEquiv1 dot_S100000x64_S64x1_S100000x1_1_0_0_1_n_n 64 rfl rfl).symm k) = lidx_main_v91 i k := funext fun a => Fin.ext (by
    match a with
    | ⟨0, _⟩ => exact lhs_main_v91_0 _ _
    | ⟨1, _⟩ => exact (lhs_main_v91_1 _ _).trans hk)
  have er : dot_S100000x64_S64x1_S100000x1_1_0_0_1_n_n.rhsIdx i ((ValueIdx.contrEquiv1 dot_S100000x64_S64x1_S100000x1_1_0_0_1_n_n 64 rfl rfl).symm k) = ridx_main_v91 i k := funext fun a => Fin.ext (by
    match a with
    | ⟨0, _⟩ => exact (rhs_main_v91_0 _ _).trans hk
    | ⟨1, _⟩ => exact rhs_main_v91_1 _ _)
  rw [el, er]

end Cert.ReferenceIdeal.At

end
-- ==== Proof.RefHead.lean ====
/-
  The reference's head, over ANY operands, and its value at an index.

  `head h P b L β` is the reference's own chain — product with P, plus the bias row spread over the rows, maximum
  with zero, product with the column L, plus β spread over the rows — taken of an arbitrary [100000, 64] array h and
  of the four small operands in the layouts the second grid is handed (P = the projection transposed, b its bias as
  one row, L the head's weights as one column, β the head's bias as a [1, 1] array).  The reference's result is this
  chain of its own aggregated features (`result_eq_head`: nothing to prove, the stages unfold to it).

  At (r, 0) it is  (sum over j of max (sum over k of h (r, k) · P (k, j) + b (0, j), 0) · L (j, 0)) + β (0, 0).
-/
import proofs.«108999_j50483045597459_1_alg».proof.Proof.RefDot

noncomputable section

namespace Cert.ReferenceIdeal.At

open Cert.ReferenceIdeal Cert.ReferenceIdeal.Gen Cert.ReferenceIdeal.Read Idealize.ShloMosaic Idealize.ShloMosaic.TcCoe

/-- The reference's head of an arbitrary feature array. -/
def head (h : FVec Ideal S100000x64 .f32) (p : FVec Ideal S64x64 .f32)
    (b : FVec Ideal S1x64 .f32) (l : FVec Ideal S64x1 .f32) (β : FVec Ideal S1x1 .f32) : FVec Ideal S100000x1 .f32 :=
  addf (Host.dotGeneral (F := Ideal) (φ₁ := .f32) (φ₂ := .f32) dot_S100000x64_S64x1_S100000x1_1_0_0_1_n_n none
      (maximumf (addf (Host.dotGeneral (F := Ideal) (φ₁ := .f32) (φ₂ := .f32) dot_S100000x64_S64x64_S100000x64_1_0_0_1_n_n none h p)
        (broadcastInDim S100000x64 ![0, 1] bcast_S1x64_S100000x64_0_1 b)) (val_main_call1_v0 (F := Ideal))) l)
    (broadcastInDim S100000x1 ![0, 1] bcast_S1x1_S100000x1_0_1 β)

/-- The reference's result is its head of its own aggregated features and small operands. -/
theorem result_eq_head (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x64, .f32⟩ : BufTy).Contents (Elt Ideal))
    (x4 x5 : (⟨S192x64, .f32⟩ : BufTy).Contents (Elt Ideal)) (x6 x7 : (⟨S192, .f32⟩ : BufTy).Contents (Elt Ideal))
    (x8 : (⟨S64x64, .f32⟩ : BufTy).Contents (Elt Ideal)) (x9 : (⟨S64, .f32⟩ : BufTy).Contents (Elt Ideal))
    (x10 : (⟨S1x64, .f32⟩ : BufTy).Contents (Elt Ideal)) (x11 : (⟨S1, .f32⟩ : BufTy).Contents (Elt Ideal)) :
    val_main_v94 (F := Ideal) x0 x1 x2 x3 x4 x5 x6 x7 x8 x9 x10 x11
      = head (val_main_v83 (F := Ideal) x0 x1 x2 x3 x4 x5 x6 x7) (val_main_v84 (F := Ideal) x8) (val_main_v86 (F := Ideal) x9)
          (val_main_v90 (F := Ideal) x10) (val_main_v92 (F := Ideal) x11) := by
  unfold val_main_v94 val_main_v91 val_main_v93 val_main_v89 val_main_v88 val_main_v85 val_main_v87 head
  rfl

/-- The bias row under (r, j). -/
theorem biasRow_apply (b : FVec Ideal S1x64 .f32) (i : S100000x64.Idx) :
    broadcastInDim S100000x64 ![0, 1] bcast_S1x64_S100000x64_0_1 b i = b (idx_main_v87 i) :=
  broadcastInDim_apply _ bcast_S1x64_S100000x64_0_1 b i (idx_main_v87 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- β under (r, 0). -/
theorem beta_apply (β : FVec Ideal S1x1 .f32) (i : S100000x1.Idx) :
    broadcastInDim S100000x1 ![0, 1] bcast_S1x1_S100000x1_0_1 β i = β (idx_main_v93 i) :=
  broadcastInDim_apply _ bcast_S1x1_S100000x1_0_1 β i (idx_main_v93 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

/-- The head at (r, 0). -/
theorem head_apply (h : FVec Ideal S100000x64 .f32) (p : FVec Ideal S64x64 .f32)
    (b : FVec Ideal S1x64 .f32) (l : FVec Ideal S64x1 .f32) (β : FVec Ideal S1x1 .f32) (i : S100000x1.Idx) :
    head h p b l β i
      = (∑ j : Fin 64, max ((∑ k : Fin 64, h (lidx_main_v38 (lidx_main_v91 i j) k) * p (ridx_main_v38 (lidx_main_v91 i j) k))
              + b (idx_main_v87 (lidx_main_v91 i j)))
            (Ideal.ofBits .f32 0x00000000#32) * l (ridx_main_v91 i j)) + β (idx_main_v93 i) := by
  unfold head
  rw [ValueIdx.addf_apply, dotThin_apply, beta_apply]
  refine congrArg (· + β (idx_main_v93 i)) (Finset.sum_congr rfl fun j _ => ?_)
  refine congrArg (· * l (ridx_main_v91 i j)) ?_
  rw [ValueIdx.maximumf_apply, ValueIdx.addf_apply, dotWide_apply, biasRow_apply]
  rfl

end Cert.ReferenceIdeal.At

end
-- ==== Proof.HeadArray.lean ====
/-
  The second grid's output array is the reference's head of the contents it is entered with.

  Point t is handed rows 10000 t … 10000 t + 9999 of the aggregated features h and, whole, the projection transposed P,
  its bias as a row b, the head's weights as a column L and the head's bias β; it writes back rows 10000 t … 10000 t + 9999
  of the one-column output.  Entry (r, 0) of what it writes is
      (sum over j of max (sum over k of h (10000 t + r, k) · P (k, j) + b (0, j), 0) · L (j, 0)) + β (0, 0),
  which is entry (10000 t + r, 0) of the reference's head of (h, P, b, L, β).  The ten blocks cover the 100000 rows.
-/
import proofs.«108999_j50483045597459_1_alg».proof.Proof.Gen.KernelIdeal.Frame
import proofs.«108999_j50483045597459_1_alg».proof.Proof.KernelBlocks
import proofs.«108999_j50483045597459_1_alg».proof.Proof.RefHead
import Idealize.ShloMosaic.Lib.Pipeline.Value

set_option maxRecDepth 16384

noncomputable section

namespace Cert.KernelIdeal.Whole

open Cert.KernelIdeal Cert.KernelIdeal.Gen Cert.KernelIdeal.At
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz2' : (![0, 0] : Fin 2 → Nat) = fun _ => 0 := funext fun a => by fin_cases a <;> rfl

/-- The second grid's block indices over its ten points: the rows of h and of the output move with the point. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The reference's head of the contents the grid is entered with. -/
abbrev hd (c : Dev nD) : Buf (Elt Ideal) ((c : Thread nD τ).loc main_v88) :=
  Cert.ReferenceIdeal.At.head (V c main_v83 : S100000x64.Idx → EReal) (V c main_v84 : S64x64.Idx → EReal)
    (V c main_v85 : S1x64.Idx → EReal) (V c main_v86 : S64x1.Idx → EReal) (V c main_v87 : S1x1.Idx → EReal)

set_option maxHeartbeats 2000000 in
/-- What point t writes back is block t of the head. -/
theorem flushed1 (c : Dev nD) (t : Fin cfg1.N) :
    (dat1 V c).flushed 5 t = ((cfg1.win 5).blk t).view.read (Elt Ideal) (hd V c) := by
  show (cfg1.win 5).cut (grid1.coords t) ((dat1 V c).after 5 t) = _
  rw [after1_5]
  unfold out1_5
  rw [View.canon_unit_zero hz2']
  simp only [View.ld_unit_zero (S := S10000x64) hz2', View.ld_unit_zero (S := S64x64) hz2', View.ld_unit_zero (S := S1x64) hz2',
    View.ld_unit_zero (S := S64x1) hz2', View.ld_unit_zero (S := S1x1) hz2']
  obtain ⟨e00, e01, e10, e11, e20, e21, e30, e31, e40, e41, e50, e51⟩ := idx1 t
  funext j
  show k1_pay1 (F := Ideal) (iblk1 V c 0 t) (iblk1 V c 1 t) (iblk1 V c 2 t) (iblk1 V c 3 t) (iblk1 V c 4 t) j
    = hd V c (((cfg1.win 5).blk t).view.emb j)
  refine (head_pay_apply (iblk1 V c 0 t) (iblk1 V c 1 t) (iblk1 V c 2 t) (iblk1 V c 3 t) (iblk1 V c 4 t) j).trans ?_
  refine Eq.trans ?_ (Cert.ReferenceIdeal.At.head_apply (V c main_v83) (V c main_v84) (V c main_v85) (V c main_v86) (V c main_v87)
    (((cfg1.win 5).blk t).view.emb j)).symm
  have hH : ∀ (jj k : Fin 64), iblk1 V c 0 t (rowWide (rowThin j jj) k)
      = (V c main_v83 : S100000x64.Idx → EReal)
          (Cert.ReferenceIdeal.Read.lidx_main_v38 (Cert.ReferenceIdeal.Read.lidx_main_v91 (((cfg1.win 5).blk t).view.emb j) jj) k) := by
    intro jj k
    show (V c main_v83 : S100000x64.Idx → EReal) (((cfg1.win 0).blk t).view.emb (rowWide (rowThin j jj) k)) = _
    refine congrArg (V c main_v83 : S100000x64.Idx → EReal) (funext fun a => Fin.ext ?_)
    match a with
    | ⟨0, _⟩ =>
      show win1_0.index t (0 : Fin 2) * 10000 + 1 * (j 0).val = win1_5.index t (0 : Fin 2) * 10000 + 1 * (j 0).val
      rw [e00, e50]
    | ⟨1, _⟩ =>
      show win1_0.index t (1 : Fin 2) * 64 + 1 * k.val = k.val
      rw [e01]; omega
  have hP : ∀ (jj k : Fin 64), iblk1 V c 1 t (colWide (rowThin j jj) k)
      = (V c main_v84 : S64x64.Idx → EReal)
          (Cert.ReferenceIdeal.Read.ridx_main_v38 (Cert.ReferenceIdeal.Read.lidx_main_v91 (((cfg1.win 5).blk t).view.emb j) jj) k) := by
    intro jj k
    show (V c main_v84 : S64x64.Idx → EReal) (((cfg1.win 1).blk t).view.emb (colWide (rowThin j jj) k)) = _
    refine congrArg (V c main_v84 : S64x64.Idx → EReal) (funext fun a => Fin.ext ?_)
    match a with
    | ⟨0, _⟩ =>
      show win1_1.index t (0 : Fin 2) * 64 + 1 * k.val = k.val
      rw [e10]; omega
    | ⟨1, _⟩ =>
      show win1_1.index t (1 : Fin 2) * 64 + 1 * jj.val = jj.val
      rw [e11]; omega
  have hB : ∀ jj : Fin 64, iblk1 V c 2 t (biasAt jj)
      = (V c main_v85 : S1x64.Idx → EReal)
          (Cert.ReferenceIdeal.Read.idx_main_v87 (Cert.ReferenceIdeal.Read.lidx_main_v91 (((cfg1.win 5).blk t).view.emb j) jj)) := by
    intro jj
    show (V c main_v85 : S1x64.Idx → EReal) (((cfg1.win 2).blk t).view.emb (biasAt jj)) = _
    refine congrArg (V c main_v85 : S1x64.Idx → EReal) (funext fun a => Fin.ext ?_)
    match a with
    | ⟨0, _⟩ =>
      show win1_2.index t (0 : Fin 2) * 1 + 1 * 0 = 0
      rw [e20]
    | ⟨1, _⟩ =>
      show win1_2.index t (1 : Fin 2) * 64 + 1 * jj.val = jj.val
      rw [e21]; omega
  have hL : ∀ jj : Fin 64, iblk1 V c 3 t (colThin j jj)
      = (V c main_v86 : S64x1.Idx → EReal) (Cert.ReferenceIdeal.Read.ridx_main_v91 (((cfg1.win 5).blk t).view.emb j) jj) := by
    intro jj
    show (V c main_v86 : S64x1.Idx → EReal) (((cfg1.win 3).blk t).view.emb (colThin j jj)) = _
    refine congrArg (V c main_v86 : S64x1.Idx → EReal) (funext fun a => Fin.ext ?_)
    match a with
    | ⟨0, _⟩ =>
      show win1_3.index t (0 : Fin 2) * 64 + 1 * jj.val = jj.val
      rw [e30]; omega
    | ⟨1, _⟩ =>
      show win1_3.index t (1 : Fin 2) * 1 + 1 * (j 1).val = win1_5.index t (1 : Fin 2) * 1 + 1 * (j 1).val
      rw [e31, e51]
  have hβ : iblk1 V c 4 t unitAt
      = (V c main_v87 : S1x1.Idx → EReal) (Cert.ReferenceIdeal.Read.idx_main_v93 (((cfg1.win 5).blk t).view.emb j)) := by
    show (V c main_v87 : S1x1.Idx → EReal) (((cfg1.win 4).blk t).view.emb unitAt) = _
    refine congrArg (V c main_v87 : S1x1.Idx → EReal) (funext fun a => Fin.ext ?_)
    match a with
    | ⟨0, _⟩ =>
      show win1_4.index t (0 : Fin 2) * 1 + 1 * 0 = 0
      rw [e40]
    | ⟨1, _⟩ =>
      show win1_4.index t (1 : Fin 2) * 1 + 1 * 0 = 0
      rw [e41]
  refine congrArg₂ (· + ·) (Finset.sum_congr rfl fun jj _ => ?_) hβ
  refine congrArg₂ (· * ·) (congrArg (max · (Ideal.ofBits .f32 0x00000000#32)) ?_) (hL jj)
  exact congrArg₂ (· + ·) (Finset.sum_congr rfl fun k _ => congrArg₂ (· * ·) (hH jj k) (hP jj k)) (hB jj)

/-- Every row of the output lies in the block of the point its thousands digit names. -/
theorem cover1 (c : Dev nD) (i : ((cfg1.win 5).arr.view.loc (c.tc : Thread nD τ)).2.ty.Idx) :
    ∃ t : Fin cfg1.N, (cfg1.win 5).flush t = true ∧ i ∈ ((cfg1.win 5).blk t).view.set := by
  have hi0 : (i 0).val < 100000 := (i 0).isLt
  have hi1 : (i 1).val < 1 := (i 1).isLt
  have hN : cfg1.N = 10 := N_1
  let t : Fin cfg1.N := ⟨(i 0).val / 10000, by rw [hN]; omega⟩
  obtain ⟨e00, e01, e10, e11, e20, e21, e30, e31, e40, e41, e50, e51⟩ := idx1 t
  have e50' : win1_5.index t (0 : Fin 2) = (i 0).val / 10000 := e50
  refine ⟨t, flush1_5 t, ?_⟩
  show i ∈ ((View.whole main_v88).slice (win1_5.rect t)).set
  rw [View.set_slice_whole, Rect.mem_set_unit]
  intro a
  match a with
  | ⟨0, _⟩ =>
    show win1_5.index t (0 : Fin 2) * 10000 ≤ (i 0).val ∧ (i 0).val < win1_5.index t (0 : Fin 2) * 10000 + 10000
    rw [e50']; omega
  | ⟨1, _⟩ =>
    show win1_5.index t (1 : Fin 2) * 1 ≤ (i 1).val ∧ (i 1).val < win1_5.index t (1 : Fin 2) * 1 + 1
    rw [e51]; omega

/-- After the second grid its output array holds the head. -/
theorem head_array (c : Dev nD) : (dat1 V c).arrAt 5 cfg1.N = hd V c :=
  (dat1 V c).arrAt_eq_of_cover 5 (hd V c) (fun t _ => flushed1 V c t) (cover1 c)

end Cert.KernelIdeal.Whole

end
-- ==== Proof.XwArray.lean ====
/-
  The first grid's output array is the matrix product x · W.

  The grid has ten points; point t is handed rows 10000 t … 10000 t + 9999 of x and the whole evolved weight W, and
  writes back rows 10000 t … 10000 t + 9999 of the output.  Entry (r, c) of what it writes is the sum over k of
  x (10000 t + r, k) · W (k, c), which is entry (10000 t + r, c) of the host's product of x with W.  The ten row
  blocks are disjoint and cover the 100000 rows, so after the grid the array holds that product — stated here, for
  ANY contents the grid is entered with, in the very words the reference uses for it.
-/
import proofs.«108999_j50483045597459_1_alg».proof.Proof.Gen.KernelIdeal.Frame
import proofs.«108999_j50483045597459_1_alg».proof.Proof.KernelBlocks
import proofs.«108999_j50483045597459_1_alg».proof.Proof.RefDot
import Idealize.ShloMosaic.Lib.Pipeline.Value

set_option maxRecDepth 16384

noncomputable section

namespace Cert.KernelIdeal.Whole

open Cert.KernelIdeal Cert.KernelIdeal.Gen Cert.KernelIdeal.At
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The first grid's block indices over its ten points: rows move with the point, nothing else moves. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- x · W of the contents the grid is entered with, as the reference spells the product. -/
abbrev xw (c : Dev nD) : Buf (Elt Ideal) ((c : Thread nD τ).loc main_v38) :=
  Host.dotGeneral (F := Ideal) (φ₁ := .f32) (φ₂ := .f32) Cert.ReferenceIdeal.dot_S100000x64_S64x64_S100000x64_1_0_0_1_n_n none
    (V c main_arg0 : S100000x64.Idx → EReal) (V c main_v37 : S64x64.Idx → EReal)

/-- What point t writes back is block t of the product. -/
theorem flushed0 (c : Dev nD) (t : Fin cfg0.N) :
    (dat0 V c).flushed 2 t = ((cfg0.win 2).blk t).view.read (Elt Ideal) (xw V c) := by
  show (cfg0.win 2).cut (grid0.coords t) ((dat0 V c).after 2 t) = _
  rw [after0_2]
  unfold out0_2
  rw [View.canon_unit_zero hz2]
  simp only [View.ld_unit_zero (S := S10000x64) hz2, View.ld_unit_zero (S := S64x64) hz2]
  obtain ⟨e00, e01, e10, e11, e20, e21⟩ := idx0 t
  funext j
  show k0_pay1 (F := Ideal) (iblk0 V c 0 t) (iblk0 V c 1 t) j = xw V c (((cfg0.win 2).blk t).view.emb j)
  refine (xw_pay_apply (iblk0 V c 0 t) (iblk0 V c 1 t) j).trans ?_
  refine Eq.trans ?_ (Cert.ReferenceIdeal.At.dotWide_apply (V c main_arg0) (V c main_v37) (((cfg0.win 2).blk t).view.emb j)).symm
  refine Finset.sum_congr rfl fun k _ => ?_
  have hl : iblk0 V c 0 t (rowWide j k)
      = (V c main_arg0 : S100000x64.Idx → EReal) (Cert.ReferenceIdeal.Read.lidx_main_v38 (((cfg0.win 2).blk t).view.emb j) k) := by
    show (V c main_arg0 : S100000x64.Idx → EReal) (((cfg0.win 0).blk t).view.emb (rowWide j k)) = _
    refine congrArg (V c main_arg0 : S100000x64.Idx → EReal) (funext fun a => Fin.ext ?_)
    match a with
    | ⟨0, _⟩ =>
      show win0_0.index t (0 : Fin 2) * 10000 + 1 * (j 0).val = win0_2.index t (0 : Fin 2) * 10000 + 1 * (j 0).val
      rw [e00, e20]
    | ⟨1, _⟩ =>
      show win0_0.index t (1 : Fin 2) * 64 + 1 * k.val = k.val
      rw [e01]; omega
  have hr : iblk0 V c 1 t (colWide j k)
      = (V c main_v37 : S64x64.Idx → EReal) (Cert.ReferenceIdeal.Read.ridx_main_v38 (((cfg0.win 2).blk t).view.emb j) k) := by
    show (V c main_v37 : S64x64.Idx → EReal) (((cfg0.win 1).blk t).view.emb (colWide j k)) = _
    refine congrArg (V c main_v37 : S64x64.Idx → EReal) (funext fun a => Fin.ext ?_)
    match a with
    | ⟨0, _⟩ =>
      show win0_1.index t (0 : Fin 2) * 64 + 1 * k.val = k.val
      rw [e10]; omega
    | ⟨1, _⟩ =>
      show win0_1.index t (1 : Fin 2) * 64 + 1 * (j 1).val = win0_2.index t (1 : Fin 2) * 64 + 1 * (j 1).val
      rw [e11, e21]
  rw [hl, hr]

/-- Every row of the output lies in the block of the point its thousands digit names. -/
theorem cover0 (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e00, e01, e10, e11, e20, e21⟩ := idx0 t
  have e20' : win0_2.index t (0 : Fin 2) = (i 0).val / 10000 := e20
  refine ⟨t, flush0_2 t, ?_⟩
  show i ∈ ((View.whole main_v38).slice (win0_2.rect t)).set
  rw [View.set_slice_whole, Rect.mem_set_unit]
  intro a
  match a with
  | ⟨0, _⟩ =>
    show win0_2.index t (0 : Fin 2) * 10000 ≤ (i 0).val ∧ (i 0).val < win0_2.index t (0 : Fin 2) * 10000 + 10000
    rw [e20']; omega
  | ⟨1, _⟩ =>
    show win0_2.index t (1 : Fin 2) * 64 ≤ (i 1).val ∧ (i 1).val < win0_2.index t (1 : Fin 2) * 64 + 64
    rw [e21]; omega

/-- After the first grid its output array holds the product. -/
theorem xw_array (c : Dev nD) : (dat0 V c).arrAt 2 cfg0.N = xw V c :=
  (dat0 V c).arrAt_eq_of_cover 2 (xw V c) (fun t _ => flushed0 V c t) (cover0 c)

end Cert.KernelIdeal.Whole

end
-- ==== Proof.KernelHost.lean ====
/-
  The kernel program's host stretches, read.

  Before the first grid the program evolves the weight by one GRU step of W0 against itself; between the grids it
  normalises the graph (degrees by a scatter-add of the edge weights with unit self-loops, their inverse square roots
  where positive), gathers the rows of x · W by source, scales them and scatter-adds them by destination, and lays the
  head's four small operands out (two transposes, two reshapes).  These are, operation for operation, the reference's
  own lines, so each buffer the grids are handed is the reference's stage of the same name applied to the launch
  arrays — once the first grid's output is known to be the product x · W (the only line that differs).

  This module reads the first stretch, the first grid's output and the first middle stretch.
-/
import proofs.«108999_j50483045597459_1_alg».proof.Proof.Gen.KernelIdeal.Frame
import proofs.«108999_j50483045597459_1_alg».proof.Proof.Gen.ReferenceIdeal.Read
import proofs.«108999_j50483045597459_1_alg».proof.Proof.XwArray
import Idealize.ShloMosaic.Lib.StableHlo.Run
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The launch arrays, read through the first stretch and the first grid -/

theorem V1_arg0 (c : Dev nD) : V1 m ρ c main_arg0 = m ((c : Thread nD τ).loc main_arg0) := by
  show StableHlo.after (hostOps0 (F := Ideal)) (W0 m ρ c) (Proc.devRef .tc main_arg0) = _
  after_results_simp <;> rfl

theorem W2_arg1 (c : Dev nD) : W2 m ρ c (Proc.devRef .tc main_arg1) = m ((c : Thread nD τ).loc main_arg1) :=
  (W2_of_ne m ρ c main_arg1 (by decide)).trans (by
    show StableHlo.after (hostOps0 (F := Ideal)) (W0 m ρ c) (Proc.devRef .tc main_arg1) = _
    after_results_simp <;> rfl)

theorem W2_arg2 (c : Dev nD) : W2 m ρ c (Proc.devRef .tc main_arg2) = m ((c : Thread nD τ).loc main_arg2) :=
  (W2_of_ne m ρ c main_arg2 (by decide)).trans (by
    show StableHlo.after (hostOps0 (F := Ideal)) (W0 m ρ c) (Proc.devRef .tc main_arg2) = _
    after_results_simp <;> rfl)

theorem W2_arg8 (c : Dev nD) : W2 m ρ c (Proc.devRef .tc main_arg8) = m ((c : Thread nD τ).loc main_arg8) :=
  (W2_of_ne m ρ c main_arg8 (by decide)).trans (by
    show StableHlo.after (hostOps0 (F := Ideal)) (W0 m ρ c) (Proc.devRef .tc main_arg8) = _
    after_results_simp <;> rfl)

theorem W2_arg9 (c : Dev nD) : W2 m ρ c (Proc.devRef .tc main_arg9) = m ((c : Thread nD τ).loc main_arg9) :=
  (W2_of_ne m ρ c main_arg9 (by decide)).trans (by
    show StableHlo.after (hostOps0 (F := Ideal)) (W0 m ρ c) (Proc.devRef .tc main_arg9) = _
    after_results_simp <;> rfl)

theorem W2_arg10 (c : Dev nD) : W2 m ρ c (Proc.devRef .tc main_arg10) = m ((c : Thread nD τ).loc main_arg10) :=
  (W2_of_ne m ρ c main_arg10 (by decide)).trans (by
    show StableHlo.after (hostOps0 (F := Ideal)) (W0 m ρ c) (Proc.devRef .tc main_arg10) = _
    after_results_simp <;> rfl)

theorem W2_arg11 (c : Dev nD) : W2 m ρ c (Proc.devRef .tc main_arg11) = m ((c : Thread nD τ).loc main_arg11) :=
  (W2_of_ne m ρ c main_arg11 (by decide)).trans (by
    show StableHlo.after (hostOps0 (F := Ideal)) (W0 m ρ c) (Proc.devRef .tc main_arg11) = _
    after_results_simp <;> rfl)

/-! ## The evolved weight -/

set_option maxHeartbeats 4000000 in
/-- What the first grid is handed as its second operand is the reference's evolved weight. -/
theorem weight_eq (c : Dev nD) :
    V1 m ρ c main_v37 = Cert.ReferenceIdeal.Read.val_main_v37 (F := Ideal) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after (hostOps0 (F := Ideal)) (W0 m ρ c) (Proc.devRef .tc main_v37) = _
  after_results_simp
  rfl

/-- After the first grid its output buffer holds the reference's product of x with the evolved weight. -/
theorem W2_v38 (c : Dev nD) :
    W2 m ρ c (Proc.devRef .tc main_v38)
      = Cert.ReferenceIdeal.Read.val_main_v38 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) :=
  (W2_arr m ρ c 2).trans ((xw_array (V1 m ρ) c).trans
    (congrArg₂ (Host.dotGeneral (F := Ideal) (φ₁ := .f32) (φ₂ := .f32) Cert.ReferenceIdeal.dot_S100000x64_S64x64_S100000x64_1_0_0_1_n_n none)
      (V1_arg0 m ρ c) (weight_eq m ρ c)))

/-! ## The middle stretches, boundary by boundary

`mid1` is the contents after the lines up to the inverse square root of the degrees, `mid2` after the three lines of
the outlined `where`.  Each buffer a later line reads is named at its boundary, so no line is opened twice. -/

/-- The contents after the first middle stretch. -/
def mid1 (c : Dev nD) : Valuation τ sig (Elt Ideal) := StableHlo.after (hostOps1 (F := Ideal)) (W2 m ρ c)
/-- The contents after the outlined `where`. -/
def mid2 (c : Dev nD) : Valuation τ sig (Elt Ideal) := StableHlo.after (hostOps1_1 (F := Ideal)) (mid1 m ρ c)

theorem V5_eq (c : Dev nD) (b : Ref sig .tc) :
    V5 m ρ c b = StableHlo.after (hostOps1_2 (F := Ideal)) (mid2 m ρ c) (Proc.devRef .tc b) := rfl

/-! ### After the first middle stretch -/

theorem mid1_v44 (c : Dev nD) : mid1 m ρ c (Proc.devRef .tc main_v44) = Cert.ReferenceIdeal.Read.val_main_v44 (F := Ideal) (m ((c : Thread nD τ).loc main_arg1)) := by
  unfold mid1
  after_results
  rw [W2_arg1 m ρ c]
  rfl

theorem mid1_v45 (c : Dev nD) : mid1 m ρ c (Proc.devRef .tc main_v45) = Cert.ReferenceIdeal.Read.val_main_v45 (F := Ideal) (m ((c : Thread nD τ).loc main_arg1)) := by
  unfold mid1
  after_results
  rw [W2_arg1 m ρ c]
  rfl

theorem mid1_v47 (c : Dev nD) : mid1 m ρ c (Proc.devRef .tc main_v47) = Cert.ReferenceIdeal.Read.val_main_v47 (F := Ideal) (m ((c : Thread nD τ).loc main_arg2)) := by
  unfold mid1
  after_results
  rw [W2_arg2 m ρ c]
  rfl
set_option maxHeartbeats 2000000 in
theorem mid1_v52 (c : Dev nD) : mid1 m ρ c (Proc.devRef .tc main_v52) = Cert.ReferenceIdeal.Read.val_main_v52 (F := Ideal) (m ((c : Thread nD τ).loc main_arg1)) (m ((c : Thread nD τ).loc main_arg2)) := by
  unfold mid1
  after_results
  rw [W2_arg1 m ρ c, W2_arg2 m ρ c]
  rfl
set_option maxHeartbeats 2000000 in
theorem mid1_v53 (c : Dev nD) : mid1 m ρ c (Proc.devRef .tc main_v53) = Cert.ReferenceIdeal.Read.val_main_v53 (F := Ideal) (m ((c : Thread nD τ).loc main_arg1)) (m ((c : Thread nD τ).loc main_arg2)) := by
  unfold mid1
  after_results
  rw [W2_arg1 m ρ c, W2_arg2 m ρ c]
  rfl

theorem mid1_cst_7 (c : Dev nD) : mid1 m ρ c (Proc.devRef .tc main_cst_7) = Cert.ReferenceIdeal.Read.val_main_cst_7 (F := Ideal) := by
  unfold mid1
  after_results
  rfl

theorem mid1_v38 (c : Dev nD) : mid1 m ρ c (Proc.devRef .tc main_v38) = Cert.ReferenceIdeal.Read.val_main_v38 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) := by
  unfold mid1
  after_results_simp
  exact W2_v38 m ρ c

theorem mid1_arg8 (c : Dev nD) : mid1 m ρ c (Proc.devRef .tc main_arg8) = m ((c : Thread nD τ).loc main_arg8) := by
  unfold mid1
  after_results_simp
  exact W2_arg8 m ρ c

theorem mid1_arg9 (c : Dev nD) : mid1 m ρ c (Proc.devRef .tc main_arg9) = m ((c : Thread nD τ).loc main_arg9) := by
  unfold mid1
  after_results_simp
  exact W2_arg9 m ρ c

theorem mid1_arg10 (c : Dev nD) : mid1 m ρ c (Proc.devRef .tc main_arg10) = m ((c : Thread nD τ).loc main_arg10) := by
  unfold mid1
  after_results_simp
  exact W2_arg10 m ρ c

theorem mid1_arg11 (c : Dev nD) : mid1 m ρ c (Proc.devRef .tc main_arg11) = m ((c : Thread nD τ).loc main_arg11) := by
  unfold mid1
  after_results_simp
  exact W2_arg11 m ρ c

end Cert.KernelIdeal.Whole

end
-- ==== Proof.SecondGridInputs.lean ====
/-
  What the second grid is handed.

  After the outlined `where` (the inverse square roots of the degrees, zero where a degree is not positive) the last
  middle stretch gathers, scales and scatter-adds the rows of x · W and lays out the head's small operands.  Each
  buffer the second grid reads is the reference's stage of the same name applied to the launch arrays.  The two
  reshapes ([64] to [1, 64] and [1] to [1, 1]) are spelt as broadcasts in the reference; entry by entry they are the
  same array.
-/
import proofs.«108999_j50483045597459_1_alg».proof.Proof.KernelHost

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ### After the outlined `where` -/

/-- The inverse square roots of the degrees, zero where the degree is not positive. -/
theorem mid2_v54 (c : Dev nD) : mid2 m ρ c (Proc.devRef .tc main_v54) = Cert.ReferenceIdeal.Read.val_main_v54 (F := Ideal) (m ((c : Thread nD τ).loc main_arg1)) (m ((c : Thread nD τ).loc main_arg2)) := by
  unfold mid2
  -- the three lines of the outlined `where` — copy the zero, spread it over the nodes, select — as plain operations
  show StableHlo.after ([StableHlo.unary main_cst_7 main_call0_v0 (id : (⟨S_, .f32⟩ : BufTy).Contents (Elt Ideal) → (⟨S_, .f32⟩ : BufTy).Contents (Elt Ideal)),
      StableHlo.unary main_call0_v0 main_call0_v1 (broadcastInDim S100000 ![] bcast_S_S100000 : (⟨S_, .f32⟩ : BufTy).Contents (Elt Ideal) → (⟨S100000, .f32⟩ : BufTy).Contents (Elt Ideal)),
      StableHlo.ternary main_v52 main_v53 main_call0_v1 main_v54
        (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal))] : List (HloOp τ sig (Elt Ideal))) (mid1 m ρ c) (Proc.devRef .tc main_v54) = _
  after_results_simp
  rw [mid1_v52 m ρ c, mid1_v53 m ρ c, mid1_cst_7 m ρ c]
  rfl

theorem mid2_v44 (c : Dev nD) : mid2 m ρ c (Proc.devRef .tc main_v44) = Cert.ReferenceIdeal.Read.val_main_v44 (F := Ideal) (m ((c : Thread nD τ).loc main_arg1)) := by
  unfold mid2
  after_results_simp
  exact mid1_v44 m ρ c

theorem mid2_v45 (c : Dev nD) : mid2 m ρ c (Proc.devRef .tc main_v45) = Cert.ReferenceIdeal.Read.val_main_v45 (F := Ideal) (m ((c : Thread nD τ).loc main_arg1)) := by
  unfold mid2
  after_results_simp
  exact mid1_v45 m ρ c

theorem mid2_v47 (c : Dev nD) : mid2 m ρ c (Proc.devRef .tc main_v47) = Cert.ReferenceIdeal.Read.val_main_v47 (F := Ideal) (m ((c : Thread nD τ).loc main_arg2)) := by
  unfold mid2
  after_results_simp
  exact mid1_v47 m ρ c

theorem mid2_v38 (c : Dev nD) : mid2 m ρ c (Proc.devRef .tc main_v38) = Cert.ReferenceIdeal.Read.val_main_v38 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) := by
  unfold mid2
  after_results_simp
  exact mid1_v38 m ρ c

theorem mid2_arg8 (c : Dev nD) : mid2 m ρ c (Proc.devRef .tc main_arg8) = m ((c : Thread nD τ).loc main_arg8) := by
  unfold mid2
  after_results_simp
  exact mid1_arg8 m ρ c

theorem mid2_arg9 (c : Dev nD) : mid2 m ρ c (Proc.devRef .tc main_arg9) = m ((c : Thread nD τ).loc main_arg9) := by
  unfold mid2
  after_results_simp
  exact mid1_arg9 m ρ c

theorem mid2_arg10 (c : Dev nD) : mid2 m ρ c (Proc.devRef .tc main_arg10) = m ((c : Thread nD τ).loc main_arg10) := by
  unfold mid2
  after_results_simp
  exact mid1_arg10 m ρ c

theorem mid2_arg11 (c : Dev nD) : mid2 m ρ c (Proc.devRef .tc main_arg11) = m ((c : Thread nD τ).loc main_arg11) := by
  unfold mid2
  after_results_simp
  exact mid1_arg11 m ρ c

/-! ## What the second grid is handed -/

set_option maxHeartbeats 4000000 in
/-- The aggregated features are the reference's. -/
theorem features_eq (c : Dev nD) :
    V5 m ρ c main_v83 = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [V5_eq]
  after_results_simp
  rw [mid2_v38 m ρ c, mid2_v44 m ρ c, mid2_v45 m ρ c, mid2_v47 m ρ c, mid2_v54 m ρ c]
  rfl

/-- The projection, transposed. -/
theorem proj_eq (c : Dev nD) : V5 m ρ c main_v84 = Cert.ReferenceIdeal.Read.val_main_v84 (F := Ideal) (m ((c : Thread nD τ).loc main_arg8)) := by
  rw [V5_eq]
  after_results_simp
  rw [mid2_arg8 m ρ c]
  rfl

/-- The head's weights, as a column. -/
theorem col_eq (c : Dev nD) : V5 m ρ c main_v86 = Cert.ReferenceIdeal.Read.val_main_v90 (F := Ideal) (m ((c : Thread nD τ).loc main_arg10)) := by
  rw [V5_eq]
  after_results_simp
  rw [mid2_arg10 m ρ c]
  rfl

/-- The projection's bias as one row: the reshape of [64] to [1, 64] is the reference's broadcast of it. -/
theorem biasRow_eq (c : Dev nD) : V5 m ρ c main_v85 = Cert.ReferenceIdeal.Read.val_main_v86 (F := Ideal) (m ((c : Thread nD τ).loc main_arg9)) := by
  have e : V5 m ρ c main_v85 = shapeCast S1x64 ((m ((c : Thread nD τ).loc main_arg9)) : S64.Idx → EReal) shapeCasts_S64_S1x64 := by
    rw [V5_eq]
    after_results_simp
    rw [mid2_arg9 m ρ c]
    rfl
  rw [e]
  funext i
  rw [Cert.ReferenceIdeal.Read.val_main_v86_apply]
  refine shapeCast_apply ((m ((c : Thread nD τ).loc main_arg9)) : S64.Idx → EReal) shapeCasts_S64_S1x64 i (Cert.ReferenceIdeal.Read.idx_main_v86 i) ?_
  have h0 : (i 0).val < 1 := (i 0).isLt
  show (S64.rowMajor (Cert.ReferenceIdeal.Read.idx_main_v86 i)).val = (S1x64.rowMajor i).val
  rw [Shape.rowMajor_val_one, Shape.rowMajor_val_two]
  show (i 1).val = (i 0).val * 64 + (i 1).val
  omega

/-- The head's bias as a [1, 1] array: the reshape of [1] is the reference's broadcast of it. -/
theorem beta_eq (c : Dev nD) : V5 m ρ c main_v87 = Cert.ReferenceIdeal.Read.val_main_v92 (F := Ideal) (m ((c : Thread nD τ).loc main_arg11)) := by
  have e : V5 m ρ c main_v87 = shapeCast S1x1 ((m ((c : Thread nD τ).loc main_arg11)) : S1.Idx → EReal) shapeCasts_S1_S1x1 := by
    rw [V5_eq]
    after_results_simp
    rw [mid2_arg11 m ρ c]
    rfl
  rw [e]
  funext i
  rw [Cert.ReferenceIdeal.Read.val_main_v92_apply]
  refine shapeCast_apply ((m ((c : Thread nD τ).loc main_arg11)) : S1.Idx → EReal) shapeCasts_S1_S1x1 i (Cert.ReferenceIdeal.Read.idx_main_v92 i) ?_
  have h0 : (i 0).val < 1 := (i 0).isLt
  have h1 : (i 1).val < 1 := (i 1).isLt
  show (S1.rowMajor (Cert.ReferenceIdeal.Read.idx_main_v92 i)).val = (S1x1.rowMajor i).val
  rw [Shape.rowMajor_val_one, Shape.rowMajor_val_two]
  show 0 = (i 0).val * 1 + (i 1).val
  omega

end Cert.KernelIdeal.Whole

end
-- ==== Proof.KernelResult.lean ====
/-
  The idealized kernel's result is the reference's result term of the launch arrays.

  The result buffer ends at what the second grid's write-backs leave, which is the reference's head of what that grid
  was handed; it was handed the reference's aggregated features (computed from the first grid's x · W by the shared
  host lines) and the reference's four small operands.  The reference's result is that same head of those same five
  arrays.
-/
import proofs.«108999_j50483045597459_1_alg».proof.Proof.HeadArray
import proofs.«108999_j50483045597459_1_alg».proof.Proof.SecondGridInputs

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The last boundary's contents at the result buffer, as the reference's result term. -/
theorem result_eq (c : Dev nD) :
    W6 m ρ c (Proc.devRef .tc main_v88)
      = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((head_array (V5 m ρ) c).trans ?_)
  rw [Cert.ReferenceIdeal.At.result_eq_head]
  show Cert.ReferenceIdeal.At.head (V5 m ρ c main_v83) (V5 m ρ c main_v84) (V5 m ρ c main_v85) (V5 m ρ c main_v86) (V5 m ρ c main_v87) = _
  rw [features_eq m ρ c, proj_eq m ρ c, biasRow_eq m ρ c, col_eq m ρ c, beta_eq m ρ c]

end Cert.KernelIdeal.Whole

end
-- ==== Proof.lean ====
/-
  Kernel against reference, on the extended reals.

  Both programs evolve a [64, 64] weight W by one GRU step, form x · W for the 100000 nodes, aggregate its rows
  over the graph's edges (unit self-loops added, symmetric normalisation by the inverse square roots of the degrees),
  and apply a two-layer head, relu (h Pᵀ + b) Lᵀ + β.  The kernel computes x · W and the head in two grids of ten
  row blocks each, casting its matrix operands to bf16 and accumulating into zero; everything else is the same host
  lines in both programs.  On the extended reals the casts are the identity, a product accumulated into zero is the
  plain sum over the contracted axis, and a product taken row block by row block is the product: so the two results
  are one function of the arguments.  No law used needs the inputs finite; the precondition is not opened.

  The three frames are the generated ones (the reference's is its generated run with the result dropped); no operation
  was rewritten by the idealization, so there is nothing to preserve.
-/
import proofs.«108999_j50483045597459_1_alg».proof.Defs
import proofs.«108999_j50483045597459_1_alg».proof.Proof.Gen.Kernel
import proofs.«108999_j50483045597459_1_alg».proof.Proof.Gen.Kernel.Frame
import proofs.«108999_j50483045597459_1_alg».proof.Proof.Gen.KernelIdeal
import proofs.«108999_j50483045597459_1_alg».proof.Proof.Gen.KernelIdeal.Frame
import proofs.«108999_j50483045597459_1_alg».proof.Proof.Gen.ReferenceIdeal
import proofs.«108999_j50483045597459_1_alg».proof.Proof.Gen.Pre_finite_inputs
import proofs.«108999_j50483045597459_1_alg».proof.Proof.Gen.ReferenceIdeal.Run
import proofs.«108999_j50483045597459_1_alg».proof.Proof.Gen.ReferenceIdeal.Read
import proofs.«108999_j50483045597459_1_alg».proof.Proof.KernelRun
import proofs.«108999_j50483045597459_1_alg».proof.Proof.KernelResult

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the reference's result term of those arguments. -/
theorem algebraic : Cert.algebraic_KernelIdeal_ReferenceIdeal := by
  intro m ρ m' ρ' _ hagree
  refine ⟨fun c => Cert.ReferenceIdeal.Read.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Whole.result_eq m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.Read.val_main_v94_eq, h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
